-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x11008 : Shape := ⟨2, ![4096, 11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S4096x4096 .f32) (main_arg1 : FVec F S4096x11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  main_v8
-- ==== Kernel.lean ====
abbrev S4096x4096 : Shape := ⟨2, ![4096, 4096]⟩
abbrev S4096x11008 : Shape := ⟨2, ![4096, 11008]⟩
abbrev S256x4096 : Shape := ⟨2, ![256, 4096]⟩
abbrev S256x4 : Shape := ⟨2, ![256, 4]⟩
abbrev S4096x64 : Shape := ⟨2, ![4096, 64]⟩
abbrev S4x4096 : Shape := ⟨2, ![4, 4096]⟩
abbrev S4x64 : Shape := ⟨2, ![4, 64]⟩
abbrev S256x64 : Shape := ⟨2, ![256, 64]⟩
abbrev S4096x128 : Shape := ⟨2, ![4096, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096x4096, .bf16⟩
  | .hbm, ⟨3, _⟩ => ⟨S4096x11008, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S4096x4096, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![86], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  iota_S256x4_d0_w32 : S256x4.Iotas .tc 32 [0]
  iota_S256x4_d1_w32 : S256x4.Iotas .tc 32 [1]
  natLt_1_32 : 1 < 32
  iota_S4096x64_d0_w32 : S4096x64.Iotas .tc 32 [0]
  iota_S4096x64_d1_w32 : S4096x64.Iotas .tc 32 [1]
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S4096x128_S4096x128_0_0 : ∀ a, (![0, 0] : Fin 2 → Nat) a + S4096x128.size a ≤ S4096x128.size a
  h_S4096x128 : 0 < S4096x128.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  dot_S256x4_S256x4096_S4x4096_0_0_1_1_n_n_wf : DotDims.WF S256x4 S256x4096 S4x4096 [0] [0] [1] [1] [] []
  dot_S4x4096_S4096x64_S4x64_1_0_0_1_n_n_wf : DotDims.WF S4x4096 S4096x64 S4x64 [1] [0] [0] [1] [] []
  dot_S256x4_S4x64_S256x64_1_0_0_1_n_n_wf : DotDims.WF S256x4 S4x64 S256x64 [1] [0] [0] [1] [] []
  dot_S256x64_S4096x64_S256x4096_1_1_0_0_n_n_wf : DotDims.WF S256x64 S4096x64 S256x4096 [1] [1] [0] [0] [] []
  dot_S4096x4096_S4096x128_S4096x128_1_0_0_1_n_n_wf : DotDims.WF S4096x4096 S4096x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x4096.size a ≤ S4096x4096.size a
  hwx1_0 : ∀ i : grid1.Coords, EltTy.bits .bf16 = 32 ∨ (Rect.block (s := S4096x4096) S4096x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x11008.size a
  hwx1_1 : ∀ i : grid1.Coords, EltTy.bits .f32 = 32 ∨ (Rect.block (s := S4096x11008) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x11008.size a
  hwx1_2 : ∀ i : grid1.Coords, EltTy.bits .f32 = 32 ∨ (Rect.block (s := S4096x11008) S4096x128.size (cc1_transform_2 i) (hinb1_2 i)).WholeWords (EltTy.packing .f32)

variable [Facts₀]

def dot_S256x4_S256x4096_S4x4096_0_0_1_1_n_n : DotDims S256x4 S256x4096 S4x4096 where
  lhsContracting := [0]
  rhsContracting := [0]
  lhsNonContracting := [1]
  rhsNonContracting := [1]
  lhsBatch := []
  rhsBatch := []
  wf := dot_S256x4_S256x4096_S4x4096_0_0_1_1_n_n_wf
def dot_S4x4096_S4096x64_S4x64_1_0_0_1_n_n : DotDims S4x4096 S4096x64 S4x64 where
  lhsContracting := [1]
  rhsContracting := [0]
  lhsNonContracting := [0]
  rhsNonContracting := [1]
  lhsBatch := []
  rhsBatch := []
  wf := dot_S4x4096_S4096x64_S4x64_1_0_0_1_n_n_wf
def dot_S256x4_S4x64_S256x64_1_0_0_1_n_n : DotDims S256x4 S4x64 S256x64 where
  lhsContracting := [1]
  rhsContracting := [0]
  lhsNonContracting := [0]
  rhsNonContracting := [1]
  lhsBatch := []
  rhsBatch := []
  wf := dot_S256x4_S4x64_S256x64_1_0_0_1_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S4096x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x11008 : Shape := ⟨2, ![4096, 11008]⟩
abbrev S64x64x64x64 : Shape := ⟨4, ![64, 64, 64, 64]⟩
abbrev S_ : Shape := ⟨0, ![]⟩
abbrev S64x64 : Shape := ⟨2, ![64, 64]⟩
abbrev S64x1x64x1 : Shape := ⟨4, ![64, 1, 64, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S64x64x64x64, .f32⟩
  | .hbm, ⟨3, _⟩ => ⟨S64x64x64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .i1⟩
  | .hbm, ⟨12, _⟩ => ⟨S64x1x64x1, .i1⟩
  | .hbm, ⟨13, _⟩ => ⟨S64x1x64x1, .f32⟩
  | .hbm, ⟨14, _⟩ => ⟨S64x64x64x64, .f32⟩
  | .hbm, ⟨15, _⟩ => ⟨S64x64x64x64, .f32⟩
  | .hbm, ⟨16, _⟩ => ⟨S4096x4096, .f32⟩
  | .hbm, ⟨17, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x4096_S64x64x64x64 : S4096x4096.ShapeCasts S64x64x64x64
  reducesTo_S64x64x64x64_S64x64_d1_3 : S64x64x64x64.ReducesTo [1, 3] S64x64
  h_S_ : 0 < S_.numel
  bcast_S_S64x64 : S_.BroadcastsInDim S64x64 (![] : Fin 0 → Fin S64x64.rank)
  bcast_S64x64_S64x1x64x1_0_2 : S64x64.BroadcastsInDim S64x1x64x1 (![0, 2] : Fin 2 → Fin S64x1x64x1.rank)
  bcast_S64x1x64x1_S64x64x64x64_0_1_2_3 : S64x1x64x1.BroadcastsInDim S64x64x64x64 (![0, 1, 2, 3] : Fin 4 → Fin S64x64x64x64.rank)
  shapeCasts_S64x64x64x64_S4096x4096 : S64x64x64x64.ShapeCasts S4096x4096
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.KernelRun.lean ====
/-
  The kernel program's run with its result named.

  The program is two pipelined regions in sequence: the first writes the masked matrix, the second multiplies it by the
  weight. Every weakly fair execution from a memory with zero counters terminates without a fault; in the final state
  the result array holds what the second region's write-backs leave in it (the fold of the flushed blocks over the
  contents the region found), and the two argument arrays hold what they held at launch.
-/
import proofs.«129251_j60748017435349_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the second region's output window's array: after that region it holds the fold of the
    region's write-backs over the contents the region was entered with. -/
theorem W2_main_v1 (c : Dev nD) :
    W2 m ρ c (Proc.devRef .tc main_v1) = (dat1 (V1 m ρ) c).arrAt 2 cfg1.N :=
  W2_arr m ρ c 2

/-- The masked matrix's array, as the second region finds it, is what the first region's write-backs left. -/
theorem V1_main_v0 (c : Dev nD) :
    V1 m ρ c main_v0 = (dat0 (V0 m ρ) c).arrAt 1 cfg0.N :=
  W1_arr m ρ c 1

/-- The weight array, as the second region finds it, is the launch memory's: the first region does not touch it. -/
theorem V1_main_arg1 (c : Dev nD) :
    V1 m ρ c main_arg1 = m ((c : Thread nD τ).loc main_arg1) :=
  W1_of_ne m ρ c main_arg1 (by decide)

-- the launch theorem's implicit arguments are found by unifying its conclusion with this one, which takes unfolding
-- plain definitions in a metavariable's type
set_option backward.isDefEq.respectTransparency.types false in
/-- The run: termination, no fault, the result array at the second region's exit contents, the arguments unchanged. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c)⟩)

end Cert.KernelIdeal.Run

end
-- ==== Proof.Spec.lean ====
/-
  The function both programs compute, on extended reals.

  A 4096 × 4096 matrix x is cut into 64 × 64 tiles of 64 × 64 entries. A tile is KEPT when the mean of the absolute
  values of its entries — their sum times 1/4096 — is above a threshold, and every entry of x is multiplied by 1 if
  its tile is kept and by 0 otherwise. The result is that masked matrix times a 4096 × 11008 matrix w.

  Stated here: the sum of absolute values of a tile given by its entries (`sumAbs`), the keep factor of a tile sum
  (`keepOf`), the masked matrix entry by entry (`maskedAt`, `masked`), and the product (`G`).
-/
import Idealize.ShloMosaic.PureOps.Ideal
import Idealize.ShloMosaic.PureOps.Ideal.Laws
import Idealize.ShloMosaic.Lib.ValueIdx

noncomputable section

open scoped BigOperators

namespace Cert.TileMask

open Idealize.ShloMosaic Idealize.ShloMosaic.ValueIdx

/-- The threshold a tile's mean absolute value is compared with (the same word in both programs: never evaluated). -/
def thr : EReal := Ideal.ofBits .f32 0x3F4C49BA#32

/-- Row (or column) `64·a + p` of the big matrix: position `p` inside tile row (or column) `a`. -/
def at64 (a p : Fin 64) : Fin 4096 := ⟨64 * a.val + p.val, by omega⟩

/-- The tile row (or column) a row (or column) of the big matrix lies in. -/
def tileOf (r : Fin 4096) : Fin 64 := ⟨r.val / 64, by omega⟩

/-- The tile row (one of four) a row of a 256-row band lies in. -/
def tile4 (p : Fin 256) : Fin 4 := ⟨p.val / 64, by omega⟩

/-- Row `64·a + p` of a 256-row band: position `p` inside the band's tile row `a`. -/
def rowIn (a : Fin 4) (p : Fin 64) : Fin 256 := ⟨64 * a.val + p.val, by omega⟩

/-- The sum of the absolute values of a tile's 64 × 64 entries (`|y| = max y (-y)` on the extended reals). -/
def sumAbs (f : Fin 64 → Fin 64 → EReal) : EReal := ∑ p : Fin 64, ∑ q : Fin 64, max (f p q) (-(f p q))

/-- The factor a tile contributes: 1 when its mean absolute value `s · (1/4096)` is above the threshold, else 0. -/
def keepOf (s : EReal) : EReal := if thr < s * ((1 / 4096 : ℝ) : EReal) then 1 else 0

/-- The keep factor of tile (a, l) of `x`. -/
def keep (x : (⟨2, ![4096, 4096]⟩ : Shape).Idx → EReal) (a l : Fin 64) : EReal :=
  keepOf (sumAbs fun p q => x (ix2 (at64 a p) (at64 l q)))

/-- The masked matrix at row `r`, column `k`: the entry times its tile's keep factor. -/
def maskedAt (x : (⟨2, ![4096, 4096]⟩ : Shape).Idx → EReal) (r k : Fin 4096) : EReal :=
  x (ix2 r k) * keep x (tileOf r) (tileOf k)

/-- The masked matrix. -/
def masked (x : (⟨2, ![4096, 4096]⟩ : Shape).Idx → EReal) : (⟨2, ![4096, 4096]⟩ : Shape).Idx → EReal :=
  fun i => maskedAt x (i 0) (i 1)

/-- A 4096 × 4096 matrix times a 4096 × 11008 matrix, entry by entry. -/
def matProd (A : (⟨2, ![4096, 4096]⟩ : Shape).Idx → EReal) (w : (⟨2, ![4096, 11008]⟩ : Shape).Idx → EReal) :
    (⟨2, ![4096, 11008]⟩ : Shape).Idx → EReal :=
  fun j => ∑ k : Fin 4096, A (ix2 (j 0) k) * w (ix2 k (j 1))

/-- The result: the masked matrix times `w`. -/
def G (x : (⟨2, ![4096, 4096]⟩ : Shape).Idx → EReal) (w : (⟨2, ![4096, 11008]⟩ : Shape).Idx → EReal) :
    (⟨2, ![4096, 11008]⟩ : Shape).Idx → EReal :=
  matProd (masked x) w

theorem masked_apply (x : (⟨2, ![4096, 4096]⟩ : Shape).Idx → EReal) (r k : Fin 4096) :
    masked x (ix2 r k) = maskedAt x r k := rfl

theorem G_apply (x : (⟨2, ![4096, 4096]⟩ : Shape).Idx → EReal) (w : (⟨2, ![4096, 11008]⟩ : Shape).Idx → EReal)
    (i : Fin 4096) (j : Fin 11008) :
    G x w (ix2 i j) = ∑ k : Fin 4096, maskedAt x i k * w (ix2 k j) := rfl

end Cert.TileMask

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibColsDot.lean ====
/-
  A matrix product of two rank-2 operands that contracts the FIRST axis of both (`xᵀ · y`), read at an entry.

  For dimension numbers `d` over operands of shapes [K, M] and [K, N] and a result of shape [M, N] whose one
  contracted axis is the first of each operand — given as the four coordinate facts of `d`'s operand index
  maps, which for a literal record are decided or read off `DotDims.lhsIdx_val_of_single` — a `tpu.matmul` into
  the zero accumulator at the ideal instance is, at entry (p, q),

      Σ_{k < K} lhs[k, p] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `xᵀ · y` into the zero accumulator, at entry (p, q): the sum over the shared first axis of the products of
    column `p` of the left operand and column `q` of the right. The hypotheses say where the record's operand index
    maps read: the left operand at (contraction position, row of the entry), the right at (contraction position,
    column of the entry). -/
theorem cols_dot_zero {M N K : Nat} {φ₁ φ₂ : FTy}
    (d : DotDims ⟨2, ![K, M]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (c ⟨0, by omega⟩).val)
    (hl1 : ∀ (j : (⟨2, ![M, N]⟩ : Shape).Idx) (c : d.contr.Idx), (d.lhsIdx j c 1).val = (j 0).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![K, M]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 k p) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.MaskWords.lean ====
/-
  The two 0/1 membership matrices of the mask kernel, entry by entry.

  The kernel builds, from coordinate vectors, the matrix `Rm` (256 × 4) with `Rm[i, a] = 1` when row `i` of the band
  lies in tile row `a` (`i / 64 = a`) and `0` otherwise, and the matrix `Rk` (4096 × 64) with `Rk[k, l] = 1` when
  column `k` lies in tile column `l`. The quotient `i / 64` is computed on 32-bit words by a truncating signed
  division corrected to a floor division (subtract one when the signs of dividend and divisor differ and the
  remainder is not zero); on the coordinates that occur (below 4096) this is the natural-number quotient, checked
  coordinate by coordinate. The comparison's bit, widened to a word and converted, is the extended real 1 or 0.
-/
import proofs.«129251_j60748017435349_2_alg».proof.Proof.Gen.KernelIdeal.Skeleton
import proofs.«129251_j60748017435349_2_alg».proof.Proof.Spec

noncomputable section

open scoped BigOperators

namespace Cert.TileMask.Body

open Cert.KernelIdeal Cert.KernelIdeal.Gen Cert.TileMask Idealize.ShloMosaic Idealize.ShloMosaic.ValueIdx

/-- The floor division by 64 of a 32-bit word as the kernel spells it: the truncating quotient, less one when the
    sign of the dividend differs from the sign of 64 and the remainder is not zero. -/
def fdiv (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- "The floor quotient of `x` by 64 equals `y`", as a bit widened to a word. -/
def fdivEq (x y : BitVec 32) : BitVec 32 := (IntOp.cmpi .eq (fdiv x) y).setWidth 32

/-- On a coordinate below 4096 the kernel's floor division is the quotient of naturals. -/
theorem fdiv_ofNat : ∀ k : Fin 4096, fdiv (BitVec.ofNat 32 k.val) = BitVec.ofNat 32 (k.val / 64) := by
  decide +kernel

/-- A bit, widened to a 32-bit word, read as a signed integer and converted: the extended real 1 or 0. -/
theorem bit_word_real (b : Bool) : ((((BitVec.ofBool b).setWidth 32).toInt : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- Two words of naturals below 2³² are equal exactly when the naturals are. -/
theorem ofNat_beq {m n : Nat} (hm : m < 2 ^ 32) (hn : n < 2 ^ 32) :
    (BitVec.ofNat 32 m == BitVec.ofNat 32 n) = decide (m = n) := by
  by_cases h : m = n
  · subst h; simp
  · rw [decide_eq_false h]
    refine beq_eq_false_iff_ne.mpr fun hh => h ?_
    have := congrArg BitVec.toNat hh
    rwa [BitVec.toNat_ofNat, BitVec.toNat_ofNat, Nat.mod_eq_of_lt hm, Nat.mod_eq_of_lt hn] at this

/-- The membership entry from coordinates `m` (below 4096) and `n`: 1 when `m / 64 = n`, else 0. -/
theorem member_real {m n : Nat} (hm : m < 4096) (hn : n < 2 ^ 32) :
    (((fdivEq (BitVec.ofNat 32 m) (BitVec.ofNat 32 n)).toInt : ℝ) : EReal) = if m / 64 = n then 1 else 0 := by
  have hd := fdiv_ofNat ⟨m, hm⟩
  simp only at hd
  unfold fdivEq
  rw [hd]
  show ((((BitVec.ofBool (BitVec.ofNat 32 (m / 64) == BitVec.ofNat 32 n)).setWidth 32).toInt : ℝ) : EReal) = _
  rw [bit_word_real, ofNat_beq (by omega) hn]
  simp only [decide_eq_true_eq]

/-- The tile-column membership matrix `Rk` (4096 × 64) as the kernel's body builds it from the two coordinate
    vectors and the truncating quotient and sign word computed before it. -/
def rk : FVec Ideal S4096x64 .f32 :=
  sitofp .f32
    (extui 32
      (cmpi .eq
        (select
          (andi
            (cmpi .ne (k0_pay5) (broadcast S4096x64
              (Scalar.subi (Scalar.extui (Scalar.cmpi .sgt 64#32 0#32)) (Scalar.extui (Scalar.cmpi .slt 64#32 0#32)))))
            (cmpi .ne (remsi (iota .tc S4096x64 32 [0] iota_S4096x64_d0_w32) (broadcast S4096x64 64#32))
              (broadcast S4096x64 0#32)))
          (subi k0_pay4 (broadcast S4096x64 1#32))
          k0_pay4)
        (iota .tc S4096x64 32 [1] iota_S4096x64_d1_w32))
      natLt_1_32)

/-- A coordinate vector along one axis reads that coordinate, as a word. -/
theorem iota_axis (s : Shape) (d : Fin s.rank) (h : s.Iotas .tc 32 [d]) (j : s.Idx) :
    iota .tc s 32 [d] h j = BitVec.ofNat 32 (j d).val := by
  simp [iota]

theorem rm_word (j : S256x4.Idx) :
    k0_pay3 (F := Ideal) j
      = (((fdivEq (iota .tc S256x4 32 [0] iota_S256x4_d0_w32 j) (iota .tc S256x4 32 [1] iota_S256x4_d1_w32 j)).toInt : ℝ) : EReal) :=
  rfl

theorem rk_word (j : S4096x64.Idx) :
    rk j
      = (((fdivEq (iota .tc S4096x64 32 [0] iota_S4096x64_d0_w32 j) (iota .tc S4096x64 32 [1] iota_S4096x64_d1_w32 j)).toInt : ℝ) : EReal) :=
  rfl

/-- `Rm[i, a]` is 1 when row `i` of the band lies in tile row `a`, else 0. -/
theorem rm_apply (i : Fin 256) (a : Fin 4) :
    k0_pay3 (F := Ideal) (ix2 i a) = if i.val / 64 = a.val then 1 else 0 := by
  rw [rm_word, iota_axis, iota_axis]
  exact member_real (m := i.val) (n := a.val) (by have := i.isLt; omega) (by have := a.isLt; omega)

/-- `Rk[k, l]` is 1 when column `k` lies in tile column `l`, else 0. -/
theorem rk_apply (k : Fin 4096) (l : Fin 64) :
    rk (ix2 k l) = if k.val / 64 = l.val then 1 else 0 := by
  rw [rk_word, iota_axis, iota_axis]
  exact member_real (m := k.val) (n := l.val) k.isLt (by have := l.isLt; omega)

end Cert.TileMask.Body

end
-- ==== Proof.MaskSums.lean ====
/-
  The sum algebra of the mask kernel, on extended reals and over abstract entries.

  A 0/1 membership factor `[k / 64 = t]` picks, out of a sum over `n = 64 · T` positions, the 64 positions of
  tile `t`; picking one entry out of a short sum is the case of one position per tile. Two such passes — over the
  rows of a 256-row band and over the 4096 columns — turn the kernel's two matrix products with membership matrices
  into the sum over the 64 × 64 entries of one tile. No finiteness is used: every factor is 0 or 1, and extended
  reals form a commutative monoid with zero under multiplication and a commutative monoid under addition.
-/
import proofs.«129251_j60748017435349_2_alg».proof.Proof.Spec

noncomputable section

open scoped BigOperators

namespace Cert.TileMask.Body

open Cert.TileMask Idealize.ShloMosaic Idealize.ShloMosaic.ValueIdx

/-- A sum over `n = 64 · T` positions weighted by membership in tile `t` is the sum over the tile's 64 positions. -/
theorem sum_tile {n T : Nat} (hn : n = 64 * T) (g : Fin n → EReal) (t : Fin T) :
    ∑ k : Fin n, (if k.val / 64 = t.val then (1 : EReal) else 0) * g k
      = ∑ q : Fin 64, g ⟨64 * t.val + q.val, by have := t.isLt; have := q.isLt; omega⟩ := by
  simp only [ite_mul, one_mul, zero_mul]
  rw [← Finset.sum_filter]
  symm
  refine Finset.sum_nbij' (fun q : Fin 64 => (⟨64 * t.val + q.val, by have := t.isLt; have := q.isLt; omega⟩ : Fin n))
    (fun k : Fin n => (⟨k.val % 64, Nat.mod_lt _ (by omega)⟩ : Fin 64)) ?_ ?_ ?_ ?_ ?_
  · intro q _
    have := q.isLt
    simp only [Finset.mem_filter, Finset.mem_univ, true_and]
    omega
  · intro k _
    exact Finset.mem_univ _
  · intro q _
    have := q.isLt
    refine Fin.ext ?_
    show (64 * t.val + q.val) % 64 = q.val
    omega
  · intro k hk
    simp only [Finset.mem_filter, Finset.mem_univ, true_and] at hk
    refine Fin.ext ?_
    show 64 * t.val + k.val % 64 = k.val
    omega
  · intro q _
    rfl

/-- Picking one entry: a sum over `T` tiles weighted by "is tile `t`" is the entry of tile `t`. -/
theorem sum_pick {T : Nat} (g : Fin T → EReal) (t : Fin T) :
    ∑ a : Fin T, (if t.val = a.val then (1 : EReal) else 0) * g a = g t := by
  simp only [ite_mul, one_mul, zero_mul]
  rw [Finset.sum_eq_single t]
  · rw [if_pos rfl]
  · intro b _ hb
    rw [if_neg]
    exact fun h => hb (Fin.ext h.symm)
  · intro h
    exact absurd (Finset.mem_univ _) h

/-- The same with the membership factor on the right. -/
theorem sum_pick_right {T : Nat} (g : Fin T → EReal) (t : Fin T) :
    ∑ a : Fin T, g a * (if t.val = a.val then (1 : EReal) else 0) = g t := by
  rw [← sum_pick g t]
  exact Finset.sum_congr rfl fun a _ => mul_comm _ _

/-- The two passes: over the band's rows by membership in tile row `a`, then over the columns by membership in tile
    column `l`, is the sum over the entries of tile (a, l), rows outermost. -/
theorem two_pass (f : Fin 256 → Fin 4096 → EReal) (a : Fin 4) (l : Fin 64) :
    ∑ k : Fin 4096, (∑ i : Fin 256, (if i.val / 64 = a.val then (1 : EReal) else 0) * f i k)
        * (if k.val / 64 = l.val then (1 : EReal) else 0)
      = ∑ p' : Fin 64, ∑ q' : Fin 64, f (rowIn a p') (at64 l q') := by
  have h1 : ∀ k : Fin 4096, (∑ i : Fin 256, (if i.val / 64 = a.val then (1 : EReal) else 0) * f i k)
      = ∑ p' : Fin 64, f (rowIn a p') k := fun k => sum_tile (n := 256) (T := 4) rfl (fun i => f i k) a
  calc ∑ k : Fin 4096, (∑ i : Fin 256, (if i.val / 64 = a.val then (1 : EReal) else 0) * f i k)
          * (if k.val / 64 = l.val then (1 : EReal) else 0)
      = ∑ k : Fin 4096, (if k.val / 64 = l.val then (1 : EReal) else 0) * ∑ p' : Fin 64, f (rowIn a p') k :=
        Finset.sum_congr rfl fun k _ => by rw [h1 k, mul_comm]
    _ = ∑ q' : Fin 64, ∑ p' : Fin 64, f (rowIn a p') (at64 l q') :=
        sum_tile (n := 4096) (T := 64) rfl (fun k => ∑ p' : Fin 64, f (rowIn a p') k) l
    _ = ∑ p' : Fin 64, ∑ q' : Fin 64, f (rowIn a p') (at64 l q') := Finset.sum_comm

end Cert.TileMask.Body

end
-- ==== Proof.MaskBody.lean ====
/-
  The mask kernel's body, read at an entry of its 256 × 4096 block.

  With `Rm` (256 × 4) and `Rk` (4096 × 64) the 0/1 membership matrices of rows in tile rows and of columns in tile
  columns, the body computes, for the block `x`:

      partial  = Rmᵀ · |x|                 (4 × 4096: per tile row, the column sums of |x| over that tile row)
      blockSum = partial · Rk              (4 × 64: the sum of |x| over each tile)
      small    = [ blockSum · 2⁻¹² > thr ] (4 × 64: 1 for a kept tile, 0 otherwise)
      expand   = Rm · small                (256 × 64: each row reads its tile row's line of `small`)
      full     = expand · Rkᵀ              (256 × 4096: each entry reads its tile's keep factor)
      result   = x ⊙ full

  Each matrix product is read at an entry as a finite sum of products; the membership factors collapse the sums
  (Proof/MaskSums.lean); the literal 2⁻¹² is the real 1/4096; the comparison's bit, widened and converted, is the
  extended real 1 or 0. So the result at (p, q) is `x[p, q]` times the keep factor of the tile of (p, q).
-/
import proofs.«129251_j60748017435349_2_alg».proof.Proof.Gen.KernelIdeal.Skeleton
import proofs.«129251_j60748017435349_2_alg».proof.Proof.Spec
import proofs.«129251_j60748017435349_2_alg».proof.Proof.LibMatDot
import proofs.«129251_j60748017435349_2_alg».proof.Proof.LibRowsDot
import proofs.«129251_j60748017435349_2_alg».proof.Proof.LibColsDot
import proofs.«129251_j60748017435349_2_alg».proof.Proof.MaskWords
import proofs.«129251_j60748017435349_2_alg».proof.Proof.MaskSums

noncomputable section

open scoped BigOperators

namespace Cert.TileMask.Body

open Cert.KernelIdeal Cert.KernelIdeal.Gen Cert.TileMask Idealize.ShloMosaic Idealize.ShloMosaic.ValueIdx

/-! ## Where the four records' operand index maps read -/

abbrev d1 := dot_S256x4_S256x4096_S4x4096_0_0_1_1_n_n
abbrev d2 := dot_S4x4096_S4096x64_S4x64_1_0_0_1_n_n
abbrev d3 := dot_S256x4_S4x64_S256x64_1_0_0_1_n_n
abbrev d4 := dot_S256x64_S4096x64_S256x4096_1_1_0_0_n_n

theorem d1_l0 (j : S4x4096.Idx) (c : d1.contr.Idx) : (d1.lhsIdx j c 0).val = (c ⟨0, by decide⟩).val :=
  d1.lhsIdx_val_of_single rfl j c
theorem d1_l1 (j : S4x4096.Idx) (c : d1.contr.Idx) : (d1.lhsIdx j c 1).val = (j 0).val := by
  unfold DotDims.lhsIdx
  rw [dif_neg (show ¬(1 : Fin S256x4.rank) ∈ d1.lhsBatch by decide), dif_pos (show (1 : Fin S256x4.rank) ∈ d1.lhsNonContracting by decide)]
  rfl
theorem d1_r0 (j : S4x4096.Idx) (c : d1.contr.Idx) : (d1.rhsIdx j c 0).val = (c ⟨0, by decide⟩).val :=
  d1.rhsIdx_val_of_single rfl j c
theorem d1_r1 (j : S4x4096.Idx) (c : d1.contr.Idx) : (d1.rhsIdx j c 1).val = (j 1).val := by
  unfold DotDims.rhsIdx
  rw [dif_neg (show ¬(1 : Fin S256x4096.rank) ∈ d1.rhsBatch by decide), dif_pos (show (1 : Fin S256x4096.rank) ∈ d1.rhsNonContracting by decide)]
  rfl

theorem d2_l0 (j : S4x64.Idx) (c : d2.contr.Idx) : (d2.lhsIdx j c 0).val = (j 0).val := by
  unfold DotDims.lhsIdx
  rw [dif_neg (show ¬(0 : Fin S4x4096.rank) ∈ d2.lhsBatch by decide), dif_pos (show (0 : Fin S4x4096.rank) ∈ d2.lhsNonContracting by decide)]
  rfl
theorem d2_l1 (j : S4x64.Idx) (c : d2.contr.Idx) : (d2.lhsIdx j c 1).val = (c ⟨0, by decide⟩).val :=
  d2.lhsIdx_val_of_single rfl j c
theorem d2_r0 (j : S4x64.Idx) (c : d2.contr.Idx) : (d2.rhsIdx j c 0).val = (c ⟨0, by decide⟩).val :=
  d2.rhsIdx_val_of_single rfl j c
theorem d2_r1 (j : S4x64.Idx) (c : d2.contr.Idx) : (d2.rhsIdx j c 1).val = (j 1).val := by
  unfold DotDims.rhsIdx
  rw [dif_neg (show ¬(1 : Fin S4096x64.rank) ∈ d2.rhsBatch by decide), dif_pos (show (1 : Fin S4096x64.rank) ∈ d2.rhsNonContracting by decide)]
  rfl

theorem d3_l0 (j : S256x64.Idx) (c : d3.contr.Idx) : (d3.lhsIdx j c 0).val = (j 0).val := by
  unfold DotDims.lhsIdx
  rw [dif_neg (show ¬(0 : Fin S256x4.rank) ∈ d3.lhsBatch by decide), dif_pos (show (0 : Fin S256x4.rank) ∈ d3.lhsNonContracting by decide)]
  rfl
theorem d3_l1 (j : S256x64.Idx) (c : d3.contr.Idx) : (d3.lhsIdx j c 1).val = (c ⟨0, by decide⟩).val :=
  d3.lhsIdx_val_of_single rfl j c
theorem d3_r0 (j : S256x64.Idx) (c : d3.contr.Idx) : (d3.rhsIdx j c 0).val = (c ⟨0, by decide⟩).val :=
  d3.rhsIdx_val_of_single rfl j c
theorem d3_r1 (j : S256x64.Idx) (c : d3.contr.Idx) : (d3.rhsIdx j c 1).val = (j 1).val := by
  unfold DotDims.rhsIdx
  rw [dif_neg (show ¬(1 : Fin S4x64.rank) ∈ d3.rhsBatch by decide), dif_pos (show (1 : Fin S4x64.rank) ∈ d3.rhsNonContracting by decide)]
  rfl

theorem d4_l0 (j : S256x4096.Idx) (c : d4.contr.Idx) : (d4.lhsIdx j c 0).val = (j 0).val := by
  unfold DotDims.lhsIdx
  rw [dif_neg (show ¬(0 : Fin S256x64.rank) ∈ d4.lhsBatch by decide), dif_pos (show (0 : Fin S256x64.rank) ∈ d4.lhsNonContracting by decide)]
  rfl
theorem d4_l1 (j : S256x4096.Idx) (c : d4.contr.Idx) : (d4.lhsIdx j c 1).val = (c ⟨0, by decide⟩).val :=
  d4.lhsIdx_val_of_single rfl j c
theorem d4_r0 (j : S256x4096.Idx) (c : d4.contr.Idx) : (d4.rhsIdx j c 0).val = (j 1).val := by
  unfold DotDims.rhsIdx
  rw [dif_neg (show ¬(0 : Fin S4096x64.rank) ∈ d4.rhsBatch by decide), dif_pos (show (0 : Fin S4096x64.rank) ∈ d4.rhsNonContracting by decide)]
  rfl
theorem d4_r1 (j : S256x4096.Idx) (c : d4.contr.Idx) : (d4.rhsIdx j c 1).val = (c ⟨0, by decide⟩).val :=
  d4.rhsIdx_val_of_single rfl j c

/-! ## The literal 2⁻¹² -/

/-- The word `0x39800000` (exponent field 115, zero fraction) denotes 2⁻¹² = 1/4096. -/
theorem ofBits_inv4096 : Ideal.ofBits .f32 0x39800000#32 = ((1 / 4096 : ℝ) : EReal) := by
  simp [Ideal.ofBits, Ideal.ieee, -EReal.coe_mul]; norm_num

/-! ## The body over given membership matrices, stage by stage -/

section Stages

variable (Rm : FVec Ideal S256x4 .f32) (Rk : FVec Ideal S4096x64 .f32) (x : FVec Ideal S256x4096 .f32)

/-- `Rmᵀ · |x|`. -/
def partialSum : FVec Ideal S4x4096 .f32 :=
  matmul dot_S256x4_S256x4096_S4x4096_0_0_1_1_n_n (some .fp32) Rm (absf x) (constant S4x4096 .f32 0x00000000#32)

/-- `(Rmᵀ · |x|) · Rk`. -/
def blockSum : FVec Ideal S4x64 .f32 :=
  matmul dot_S4x4096_S4096x64_S4x64_1_0_0_1_n_n (some .fp32) (partialSum Rm x) Rk (constant S4x64 .f32 0x00000000#32)

/-- The keep bit of every tile of the band, converted. -/
def maskSmall : FVec Ideal S4x64 .f32 :=
  sitofp .f32
    (extui 32
      (cmpf .ogt (mulf (blockSum Rm Rk x) (broadcast S4x64 (Scalar.ofBits .f32 0x39800000#32)))
        (broadcast S4x64 (Scalar.ofBits .f32 0x3F4C49BA#32)))
      natLt_1_32)

/-- `Rm · small`. -/
def expand1 : FVec Ideal S256x64 .f32 :=
  matmul dot_S256x4_S4x64_S256x64_1_0_0_1_n_n none Rm (maskSmall Rm Rk x) (constant S256x64 .f32 0x00000000#32)

/-- `(Rm · small) · Rkᵀ`. -/
def maskFull : FVec Ideal S256x4096 .f32 :=
  matmul dot_S256x64_S4096x64_S256x4096_1_1_0_0_n_n none (expand1 Rm Rk x) Rk (constant S256x4096 .f32 0x00000000#32)

/-- The body: the block times the full mask, narrowed. -/
def body : FVec Ideal S256x4096 .bf16 :=
  truncf .bf16 (mulf x (maskFull Rm Rk x)) bitsLt_bf16_f32

variable (hRm : ∀ (i : Fin 256) (a : Fin 4), Rm (ix2 i a) = if i.val / 64 = a.val then 1 else 0)
  (hRk : ∀ (k : Fin 4096) (l : Fin 64), Rk (ix2 k l) = if k.val / 64 = l.val then 1 else 0)

theorem partialSum_apply (a : Fin 4) (k : Fin 4096) :
    partialSum Rm x (ix2 a k) = ∑ i : Fin 256, Rm (ix2 i a) * max (x (ix2 i k)) (-(x (ix2 i k))) :=
  cols_dot_zero (M := 4) (N := 4096) (K := 256) d1 (some .fp32) rfl rfl d1_l0 d1_l1 d1_r0 d1_r1 Rm (absf x) a k

include hRm hRk in
/-- The block sum of tile (a, l) of the band is the sum of the absolute values of the tile's entries. -/
theorem blockSum_apply (a : Fin 4) (l : Fin 64) :
    blockSum Rm Rk x (ix2 a l) = sumAbs fun p' q' => x (ix2 (rowIn a p') (at64 l q')) := by
  refine (mat_dot_zero (M := 4) (N := 64) (K := 4096) d2 (some .fp32) rfl rfl d2_l0 d2_l1 d2_r0 d2_r1
    (partialSum Rm x) Rk a l).trans ?_
  refine (Finset.sum_congr rfl fun k _ => ?_).trans
    (two_pass (fun i k => max (x (ix2 i k)) (-(x (ix2 i k)))) a l)
  rw [partialSum_apply, hRk]
  refine congrArg (· * _) (Finset.sum_congr rfl fun i _ => ?_)
  rw [hRm]

include hRm hRk in
/-- The converted keep bit of tile (a, l) is the keep factor of the tile's sum. -/
theorem maskSmall_apply (a : Fin 4) (l : Fin 64) :
    maskSmall Rm Rk x (ix2 a l) = keepOf (sumAbs fun p' q' => x (ix2 (rowIn a p') (at64 l q'))) := by
  show ((((BitVec.ofBool (decide (Ideal.ofBits .f32 0x3F4C49BA#32
      < blockSum Rm Rk x (ix2 a l) * Ideal.ofBits .f32 0x39800000#32))).setWidth 32).toInt : ℝ) : EReal) = _
  rw [bit_word_real, blockSum_apply Rm Rk x hRm hRk, ofBits_inv4096]
  unfold keepOf thr
  simp only [decide_eq_true_eq]

include hRm hRk in
/-- Row `p` of the band reads its tile row's line of keep factors. -/
theorem expand1_apply (p : Fin 256) (l : Fin 64) :
    expand1 Rm Rk x (ix2 p l) = keepOf (sumAbs fun p' q' => x (ix2 (rowIn (tile4 p) p') (at64 l q'))) := by
  refine (mat_dot_zero (M := 256) (N := 64) (K := 4) d3 none rfl rfl d3_l0 d3_l1 d3_r0 d3_r1
    Rm (maskSmall Rm Rk x) p l).trans ?_
  refine (Finset.sum_congr rfl fun a _ => ?_).trans
    (sum_pick (fun a : Fin 4 => keepOf (sumAbs fun p' q' => x (ix2 (rowIn a p') (at64 l q')))) (tile4 p))
  rw [hRm, maskSmall_apply Rm Rk x hRm hRk]
  rfl

include hRm hRk in
/-- Entry (p, q) of the full mask is the keep factor of the tile of (p, q). -/
theorem maskFull_apply (p : Fin 256) (q : Fin 4096) :
    maskFull Rm Rk x (ix2 p q) = keepOf (sumAbs fun p' q' => x (ix2 (rowIn (tile4 p) p') (at64 (tileOf q) q'))) := by
  refine (Cert.Lora.rows_dot_zero (M := 256) (N := 4096) (K := 64) d4 none rfl rfl d4_l0 d4_l1 d4_r0 d4_r1
    (expand1 Rm Rk x) Rk p q).trans ?_
  refine (Finset.sum_congr rfl fun l _ => ?_).trans
    (sum_pick_right (fun l : Fin 64 => keepOf (sumAbs fun p' q' => x (ix2 (rowIn (tile4 p) p') (at64 l q')))) (tileOf q))
  rw [hRk, expand1_apply Rm Rk x hRm hRk]
  rfl

include hRm hRk in
/-- The body at (p, q): the entry times the keep factor of its tile. -/
theorem body_apply (p : Fin 256) (q : Fin 4096) :
    body Rm Rk x (ix2 p q)
      = x (ix2 p q) * keepOf (sumAbs fun p' q' => x (ix2 (rowIn (tile4 p) p') (at64 (tileOf q) q'))) := by
  show x (ix2 p q) * maskFull Rm Rk x (ix2 p q) = _
  rw [maskFull_apply Rm Rk x hRm hRk]

end Stages

/-! ## The kernel's payload -/

/-- The mask kernel's stored value at entry (p, q) of its block `x0`: the entry times the keep factor of its tile. -/
theorem mask_payload (x0 : Vec Ideal S256x4096 .f32) (p : Fin 256) (q : Fin 4096) :
    k0_pay1 (F := Ideal) x0 (k0_pay2 x0) (k0_pay3 (F := Ideal)) (iota .tc S4096x64 32 [0] iota_S4096x64_d0_w32)
        (iota .tc S4096x64 32 [1] iota_S4096x64_d1_w32) 64#32 k0_pay4 k0_pay5
        (Scalar.extui (Scalar.cmpi .sgt 64#32 0#32)) (Scalar.cmpi .slt 64#32 0#32) (ix2 p q)
      = x0 (ix2 p q) * keepOf (sumAbs fun p' q' => x0 (ix2 (rowIn (tile4 p) p') (at64 (tileOf q) q'))) := by
  show body (k0_pay3 (F := Ideal)) rk x0 (ix2 p q) = _
  exact body_apply (k0_pay3 (F := Ideal)) rk x0 rm_apply rk_apply p q

end Cert.TileMask.Body

end
-- ==== Proof.Region0.lean ====
/-
  The first region, from blocks to the whole array.

  The grid has 16 points; point t reads rows 256·t … 256·t + 255 of x (all 4096 columns) and writes the same rows of
  the masked matrix. A band of 256 rows is four tile rows, so the tiles a band's entries lie in are inside the band:
  what the body computes from the band alone (each entry times the keep factor of its 64 × 64 tile within the band)
  is the band of the masked matrix of the whole of x. The sixteen bands cover the array, so after the region the
  array holds the masked matrix.
-/
import proofs.«129251_j60748017435349_2_alg».proof.Proof.Gen.KernelIdeal.Frame
import proofs.«129251_j60748017435349_2_alg».proof.Proof.Spec
import proofs.«129251_j60748017435349_2_alg».proof.Proof.MaskBody
import Idealize.ShloMosaic.Lib.Pipeline.Value

set_option maxRecDepth 16384

noncomputable section

namespace Cert.TileMask.R0

open Cert.KernelIdeal Cert.KernelIdeal.Gen Cert.TileMask
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- Point t's blocks: row block t, the one column block, for the input and for the output. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `256·t + r` of the big matrix: row `r` of band `t`. -/
def bandRow (t : Fin 16) (r : Fin 256) : Fin 4096 := ⟨256 * t.val + r.val, by omega⟩

/-- The input block at point t is band t of x: its entry (r, k) is x at (256·t + r, k). -/
theorem band_read (c : Dev nD) (t : Fin cfg0.N) (r : Fin 256) (k : Fin 4096) :
    (iblk0 V c 0 t : Vec Ideal S256x4096 .f32) (ix2 r k) = (V c main_arg0 : S4096x4096.Idx → EReal) (ix2 (bandRow (t.cast N_0) r) k) := by
  unfold iblk0
  rw [View.read_apply]
  show (V c main_arg0 : S4096x4096.Idx → EReal) _ = _
  refine congrArg (V c main_arg0 : S4096x4096.Idx → EReal) ?_
  funext a
  apply Fin.ext
  match a with
  | ⟨0, _⟩ => show win0_0.index t (0 : Fin 2) * 256 + 1 * r.val = 256 * t.val + r.val; rw [(block_index t).1]; omega
  | ⟨1, _⟩ => show win0_0.index t (1 : Fin 2) * 4096 + 1 * k.val = k.val; rw [(block_index t).2.1]; omega

/-- A row of band t lies in tile row 4·t + (its tile row within the band), so position p' of that tile row is row
    `256·t + 64·a + p'`, inside the band. -/
theorem tile_row_in_band (t : Fin 16) (p : Fin 256) (p' : Fin 64) :
    at64 (tileOf (bandRow t p)) p' = bandRow t (rowIn (tile4 p) p') := by
  apply Fin.ext
  simp only [at64, tileOf, bandRow, rowIn, tile4]
  omega

/-- What point t writes back is band t of the masked matrix of x as the region finds it. -/
theorem flushed_band (c : Dev nD) (t : Fin cfg0.N) :
    (dat0 V c).flushed 1 t = ((cfg0.win 1).blk t).view.read (Elt Ideal) (masked (V c main_arg0 : S4096x4096.Idx → EReal)) := by
  show (cfg0.win 1).cut (grid0.coords t) ((dat0 V c).after 1 t) = _
  rw [after0_1]
  unfold out0_1
  rw [View.canon_unit_zero offsets_zero]
  simp only [View.ld_unit_zero (S := S256x4096) offsets_zero]
  funext j
  obtain ⟨p, q, rfl⟩ : ∃ (p : Fin 256) (q : Fin 4096), j = ix2 p q := ⟨j 0, j 1, eq_ix2 (n0 := 256) (n1 := 4096) j⟩
  have hrow : (((cfg0.win 1).blk t).view.emb (ix2 p q)) = ix2 (bandRow (t.cast N_0) p) q := by
    funext a
    apply Fin.ext
    match a with
    | ⟨0, _⟩ => show win0_1.index t (0 : Fin 2) * 256 + 1 * p.val = 256 * t.val + p.val; rw [(block_index t).2.2.1]; omega
    | ⟨1, _⟩ => show win0_1.index t (1 : Fin 2) * 4096 + 1 * q.val = q.val; rw [(block_index t).2.2.2]; omega
  rw [View.read_apply, hrow]
  refine (Cert.TileMask.Body.mask_payload (iblk0 V c 0 t) p q).trans ?_
  have htile : (fun p' q' => (iblk0 V c 0 t : Vec Ideal S256x4096 .f32) (ix2 (rowIn (tile4 p) p') (at64 (tileOf q) q')))
      = fun p' q' => (V c main_arg0 : S4096x4096.Idx → EReal)
          (ix2 (at64 (tileOf (bandRow (t.cast N_0) p)) p') (at64 (tileOf q) q')) := by
    funext p' q'
    rw [band_read V c t, tile_row_in_band]
  rw [htile, band_read V c t p q]
  rfl

/-- An index of the array is in point t's block iff each coordinate is in the block's range on its axis. -/
theorem mem_band (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every index of the array is in the band of its row: band `row / 256`. -/
theorem bands_cover (i : S4096x4096.Idx) :
    ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  refine ⟨⟨(i 0).val / 256, by rw [hN]; omega⟩, flush0_1 _, ?_⟩
  rw [mem_band]
  obtain ⟨-, -, e0, e1⟩ := block_index ⟨(i 0).val / 256, by rw [hN]; omega⟩
  intro a
  match a with
  | ⟨0, _⟩ =>
    show win0_1.index _ (0 : Fin 2) * 256 ≤ (i 0).val ∧ (i 0).val < win0_1.index _ (0 : Fin 2) * 256 + 256
    rw [e0]; show (i 0).val / 256 * 256 ≤ (i 0).val ∧ (i 0).val < (i 0).val / 256 * 256 + 256; omega
  | ⟨1, _⟩ =>
    show win0_1.index _ (1 : Fin 2) * 4096 ≤ (i 1).val ∧ (i 1).val < win0_1.index _ (1 : Fin 2) * 4096 + 4096
    rw [e1]; omega

/-- After the first region its output array holds the masked matrix of x as the region found it. -/
theorem final0 (c : Dev nD) :
    (dat0 V c).arrAt 1 cfg0.N = masked (V c main_arg0 : S4096x4096.Idx → EReal) :=
  (dat0 V c).arrAt_eq_of_cover 1 (masked (V c main_arg0 : S4096x4096.Idx → EReal)) (fun t _ => flushed_band V c t) bands_cover

end Cert.TileMask.R0

end
-- ==== Proof.MatBody.lean ====
/-
  The second kernel's body at an entry.

  The body multiplies the whole left matrix (4096 × 4096) by one 128-column block of the right matrix
  (4096 × 128) with one matrix product into a zero accumulator. On extended reals the narrowing of the
  right block is the identity, and so is the reshape of the left matrix to its own shape. Hence entry
  (i, j) of what the body stores is

      Σ_{k < 4096} left[i, k] · right[k, j].
-/
import proofs.«129251_j60748017435349_2_alg».proof.Proof.Gen.KernelIdeal.Skeleton
import proofs.«129251_j60748017435349_2_alg».proof.Proof.LibMatDot
import Idealize.ShloMosaic.Lib.Pipeline.Value

noncomputable section

open scoped BigOperators

namespace Cert.TileMask.R1

open Cert.KernelIdeal Cert.KernelIdeal.Gen Idealize.ShloMosaic Idealize.ShloMosaic.ValueIdx

/-- The product's dimension numbers contract one axis, -/
theorem dims_rank : dot_S4096x4096_S4096x128_S4096x128_1_0_0_1_n_n.contr.rank = 1 := rfl

/-- of extent 4096. -/
theorem dims_size : dot_S4096x4096_S4096x128_S4096x128_1_0_0_1_n_n.contr.size ⟨0, by decide⟩ = 4096 := rfl

/-- The left operand is read at (row of the entry, -/
theorem dims_lhs0 (i : S4096x128.Idx) (q : dot_S4096x4096_S4096x128_S4096x128_1_0_0_1_n_n.contr.Idx) :
    (dot_S4096x4096_S4096x128_S4096x128_1_0_0_1_n_n.lhsIdx i q 0).val = (i 0).val := by
  unfold DotDims.lhsIdx
  rw [dif_neg (show ¬(0 : Fin S4096x4096.rank) ∈ dot_S4096x4096_S4096x128_S4096x128_1_0_0_1_n_n.lhsBatch by decide), dif_pos (show (0 : Fin S4096x4096.rank) ∈ dot_S4096x4096_S4096x128_S4096x128_1_0_0_1_n_n.lhsNonContracting by decide)]
  rfl

/-- contraction position); -/
theorem dims_lhs1 (i : S4096x128.Idx) (q : dot_S4096x4096_S4096x128_S4096x128_1_0_0_1_n_n.contr.Idx) :
    (dot_S4096x4096_S4096x128_S4096x128_1_0_0_1_n_n.lhsIdx i q 1).val = (q ⟨0, by decide⟩).val :=
  dot_S4096x4096_S4096x128_S4096x128_1_0_0_1_n_n.lhsIdx_val_of_single rfl i q

/-- the right operand at (contraction position, -/
theorem dims_rhs0 (i : S4096x128.Idx) (q : dot_S4096x4096_S4096x128_S4096x128_1_0_0_1_n_n.contr.Idx) :
    (dot_S4096x4096_S4096x128_S4096x128_1_0_0_1_n_n.rhsIdx i q 0).val = (q ⟨0, by decide⟩).val :=
  dot_S4096x4096_S4096x128_S4096x128_1_0_0_1_n_n.rhsIdx_val_of_single rfl i q

/-- column of the entry). -/
theorem dims_rhs1 (i : S4096x128.Idx) (q : dot_S4096x4096_S4096x128_S4096x128_1_0_0_1_n_n.contr.Idx) :
    (dot_S4096x4096_S4096x128_S4096x128_1_0_0_1_n_n.rhsIdx i q 1).val = (i 1).val := by
  unfold DotDims.rhsIdx
  rw [dif_neg (show ¬(1 : Fin S4096x128.rank) ∈ dot_S4096x4096_S4096x128_S4096x128_1_0_0_1_n_n.rhsBatch by decide), dif_pos (show (1 : Fin S4096x128.rank) ∈ dot_S4096x4096_S4096x128_S4096x128_1_0_0_1_n_n.rhsNonContracting by decide)]
  rfl

/-- Entry (i, j) of what the body stores: row i of the left matrix times column j of the right block. -/
theorem body_apply (v0 : Vec Ideal S4096x128 .f32) (v2 : Vec Ideal S4096x4096 .bf16) (i : Fin 4096) (j : Fin 128) :
    k1_pay1 v0 v2 (ix2 i j) = ∑ k : Fin 4096, v2 (ix2 i k) * v0 (ix2 k j) := by
  unfold k1_pay1
  refine (mat_dot_zero dot_S4096x4096_S4096x128_S4096x128_1_0_0_1_n_n none dims_rank dims_size
    dims_lhs0 dims_lhs1 dims_rhs0 dims_rhs1 _ _ i j).trans ?_
  rw [shapeCast_self]
  rfl

end Cert.TileMask.R1

end
-- ==== Proof.Region1.lean ====
/-
  The second kernel, from blocks to the whole array.

  The grid has 86 points. At point t the kernel sees the whole left matrix A (4096 × 4096) and column block t
  (128 columns) of the right matrix w (4096 × 11008), and stores into column block t of the result the product
  of A with that block. Entry (i, j) of the result lies in the block of point j / 128 only, so after the last
  point the result holds, at every (i, j),

      Σ_{k < 4096} A[i, k] · w[k, j].
-/
import proofs.«129251_j60748017435349_2_alg».proof.Proof.Gen.KernelIdeal.Frame
import proofs.«129251_j60748017435349_2_alg».proof.Proof.Spec
import proofs.«129251_j60748017435349_2_alg».proof.Proof.LibMatDot
import proofs.«129251_j60748017435349_2_alg».proof.Proof.MatBody
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.TileMask.R1

open Cert.KernelIdeal Cert.KernelIdeal.Gen Cert.TileMask Idealize.ShloMosaic.ValueIdx

variable (V : (c : Dev nD) → (b : Ref sig .tc) → Buf (Elt Ideal) ((c : Thread nD τ).loc b))

/-- The body's loads and its store start at the origin of their buffers. -/
theorem origin : (![0, 0] : Fin 2 → Nat) = fun _ => 0 := funext fun a => by fin_cases a <;> rfl

/-- Which block each window is on at point t: the left matrix always on block (0, 0), the right matrix and the
    result on column block t. -/
theorem block_index : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

/-- Entry y of what the body stores, for any index y of the 4096 × 128 block. -/
theorem body_at (v0 : Vec Ideal S4096x128 .f32) (v2 : Vec Ideal S4096x4096 .bf16) (y : S4096x128.Idx) :
    k1_pay1 v0 v2 y = ∑ k : Fin 4096, v2 (ix2 (y 0) k) * v0 (ix2 k (y 1)) :=
  (congrArg (k1_pay1 v0 v2) (eq_ix2 y)).trans (body_apply v0 v2 (y 0) (y 1))

/-- The left matrix's block at any point is the whole matrix. -/
theorem left_block (c : Dev nD) (t : Fin cfg1.N) (x : S4096x4096.Idx) (k : S4096x4096.Idx)
    (h0 : (k 0).val = (x 0).val) (h1 : (k 1).val = (x 1).val) :
    (iblk1 V c 0 t : Vec Ideal S4096x4096 .bf16) x = (V c main_v0 : S4096x4096.Idx → EReal) k := by
  obtain ⟨e0, e1, -⟩ := block_index t
  unfold iblk1
  rw [View.read_apply]
  show V c main_v0 _ = V c main_v0 _
  congr 1
  funext a
  apply Fin.ext
  match a with
  | ⟨0, _⟩ => show win1_0.index t 0 * 4096 + 1 * (x 0).val = (k 0).val; rw [e0, h0]; omega
  | ⟨1, _⟩ => show win1_0.index t 1 * 4096 + 1 * (x 1).val = (k 1).val; rw [e1, h1]; omega

/-- The right matrix's block at point t is its columns 128·t … 128·t + 127. -/
theorem right_block (c : Dev nD) (t : Fin cfg1.N) (x : S4096x128.Idx) (k : S4096x11008.Idx)
    (h0 : (k 0).val = (x 0).val) (h1 : (k 1).val = 128 * t.val + (x 1).val) :
    (iblk1 V c 1 t : Vec Ideal S4096x128 .f32) x = (V c main_arg1 : S4096x11008.Idx → EReal) k := by
  obtain ⟨-, -, e0, e1, -⟩ := block_index t
  unfold iblk1
  rw [View.read_apply]
  show V c main_arg1 _ = V c main_arg1 _
  congr 1
  funext a
  apply Fin.ext
  match a with
  | ⟨0, _⟩ => show win1_1.index t 0 * 4096 + 1 * (x 0).val = (k 0).val; rw [e0, h0]; omega
  | ⟨1, _⟩ => show win1_1.index t 1 * 128 + 1 * (x 1).val = (k 1).val; rw [e1, h1]; omega

/-- The product of two matrices at an index, as the sum over the shared axis. -/
theorem matProd_apply (A : S4096x4096.Idx → EReal) (w : S4096x11008.Idx → EReal) (j : S4096x11008.Idx) :
    matProd A w j = ∑ k : Fin 4096, A (ix2 (j 0) k) * w (ix2 k (j 1)) := rfl

/-- WHAT POINT t WRITES BACK is column block t of the product of the left matrix with the right matrix, both as the
    region finds them. -/
theorem flushed_eq (c : Dev nD) (t : Fin cfg1.N) :
    (dat1 V c).flushed 2 t = ((cfg1.win 2).blk t).view.read (Elt Ideal) (matProd (V c main_v0) (V c main_arg1)) := by
  show (cfg1.win 2).cut (grid1.coords t) ((dat1 V c).after 2 t) = _
  rw [after1_2]
  unfold out1_2
  rw [View.canon_unit_zero origin]
  simp only [View.ld_unit_zero (S := S4096x128) origin, View.ld_unit_zero (S := S4096x4096) origin]
  obtain ⟨-, -, -, -, e0, e1⟩ := block_index t
  funext y
  refine (body_at (iblk1 V c 1 t) (iblk1 V c 0 t) ((cfg1.win 2).xinj (grid1.coords t) y)).trans ?_
  rw [View.read_apply, matProd_apply]
  refine Finset.sum_congr rfl fun k _ => ?_
  have hl := left_block V c t (ix2 (((cfg1.win 2).xinj (grid1.coords t) y) 0) k) (ix2 ((((cfg1.win 2).blk t).view.emb y) 0) k)
    (by show win1_2.index t 0 * 4096 + 1 * (y 0).val = (y 0).val; rw [e0]; omega) rfl
  have hr := right_block V c t (ix2 k (((cfg1.win 2).xinj (grid1.coords t) y) 1)) (ix2 k ((((cfg1.win 2).blk t).view.emb y) 1))
    rfl (by show win1_2.index t 1 * 128 + 1 * (y 1).val = 128 * t.val + (y 1).val; rw [e1]; omega)
  rw [hl, hr]

/-- An index of the result is in point t's block iff each coordinate is in the block's range on its axis. -/
theorem mem_blk (t : Fin cfg1.N) (i : S4096x11008.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v1).slice (win1_2.rect t)).set ↔ _
  rw [View.set_slice_whole, Rect.mem_set_unit]
  exact Iff.rfl

/-- Every entry (i, j) of the result is written back by the point j / 128. -/
theorem cover (i : S4096x11008.Idx) :
    ∃ t : Fin cfg1.N, (cfg1.win 2).flush t = true ∧ i ∈ ((cfg1.win 2).blk t).view.set := by
  have hN : cfg1.N = 86 := N_1
  have hi0 : (i 0).val < 4096 := (i 0).isLt
  have hi1 : (i 1).val < 11008 := (i 1).isLt
  have ht : (i 1).val / 128 < cfg1.N := by rw [hN]; omega
  obtain ⟨-, -, -, -, e0, e1⟩ := block_index ⟨(i 1).val / 128, ht⟩
  refine ⟨⟨(i 1).val / 128, ht⟩, flush1_2 _, ?_⟩
  rw [mem_blk]
  intro a
  match a with
  | ⟨0, _⟩ => show win1_2.index ⟨(i 1).val / 128, ht⟩ (0 : Fin 2) * 4096 ≤ (i 0).val ∧ (i 0).val < win1_2.index ⟨(i 1).val / 128, ht⟩ (0 : Fin 2) * 4096 + 4096; rw [e0]; omega
  | ⟨1, _⟩ => show win1_2.index ⟨(i 1).val / 128, ht⟩ (1 : Fin 2) * 128 ≤ (i 1).val ∧ (i 1).val < win1_2.index ⟨(i 1).val / 128, ht⟩ (1 : Fin 2) * 128 + 128; rw [e1]; show (i 1).val / 128 * 128 ≤ (i 1).val ∧ (i 1).val < (i 1).val / 128 * 128 + 128; omega

/-- THE RESULT after the region: the left matrix times the right matrix, entry by entry. -/
theorem final1 (c : Dev nD) :
    (dat1 V c).arrAt 2 cfg1.N = matProd (V c main_v0) (V c main_arg1) :=
  (dat1 V c).arrAt_eq_of_cover 2 _ (fun t _ => flushed_eq V c t) cover

end Cert.TileMask.R1

end
-- ==== Proof.KernelValue.lean ====
/-
  The kernel program's result as one function of its arguments.

  After the first region the intermediate array holds the masked matrix of x; the second region finds that array and
  the weight w as launched, and leaves in the result array their matrix product. So the program ends with the result
  array at `G x w`, the masked matrix of x times w, and its arguments unchanged.
-/
import proofs.«129251_j60748017435349_2_alg».proof.Proof.KernelRun
import proofs.«129251_j60748017435349_2_alg».proof.Proof.Region0
import proofs.«129251_j60748017435349_2_alg».proof.Proof.Region1

noncomputable section

namespace Cert.TileMask.Kernel

open Cert.KernelIdeal Cert.KernelIdeal.Gen Cert.TileMask
open Idealize.ShloMosaic Idealize.ShloMosaic.TcCoe Idealize.SL.Sem

variable (m : (ℓ : Loc nD τ sig) → Buf (Elt Ideal) ℓ) (ρ : Dev nD → PrngReg)

/-- What the second region leaves in the result array, from the launch memory: the masked matrix of the first
    argument times the second. -/
theorem result_array (c : Dev nD) :
    (dat1 (V1 m ρ) c).arrAt 2 cfg1.N
      = G (m ((c.tc : Thread nD τ).loc main_arg0) : S4096x4096.Idx → EReal) (m ((c.tc : Thread nD τ).loc main_arg1) : S4096x11008.Idx → EReal) := by
  refine (Cert.TileMask.R1.final1 (V1 m ρ) c).trans ?_
  have hA : (V1 m ρ c main_v0 : S4096x4096.Idx → EReal) = masked (m ((c.tc : Thread nD τ).loc main_arg0) : S4096x4096.Idx → EReal) :=
    (Cert.KernelIdeal.Run.V1_main_v0 m ρ c).trans (Cert.TileMask.R0.final0 (V0 m ρ) c)
  have hw : (V1 m ρ c main_arg1 : S4096x11008.Idx → EReal) = (m ((c.tc : Thread nD τ).loc main_arg1) : S4096x11008.Idx → EReal) :=
    Cert.KernelIdeal.Run.V1_main_arg1 m ρ c
  rw [hA, hw]
  rfl

/-- The run, read: every weakly fair execution terminates without a fault with the result array at `G` of the
    arguments as launched, and the arguments unchanged. -/
theorem run : θ_run defs (onTc (τ := τ) (main (F := Ideal))) ⟨m, fun _ => 0, ρ⟩ (fun r => ∀ c : Dev nD,
      r.2.mem ((c.tc : Thread nD τ).loc main_v1)
        = G (m ((c.tc : Thread nD τ).loc main_arg0) : S4096x4096.Idx → EReal) (m ((c.tc : Thread nD τ).loc main_arg1) : S4096x11008.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_array m ρ c), (h c).2⟩)
    (Cert.KernelIdeal.Run.run_value m ρ)

end Cert.TileMask.Kernel

end
-- ==== Proof.RefRead.lean ====
/-
  The reference program, read entry by entry.

  The reference reshapes the 4096 × 4096 matrix x into a 64 × 64 × 64 × 64 array whose entry (a, p, l, q) is
  x[64a + p, 64l + q]: tile (a, l), position (p, q) inside it. It sums the absolute values over the two inner
  coordinates p and q, divides each of the 64 × 64 tile sums by 4096, compares with the threshold, turns the
  comparison bit into 1 or 0, multiplies every entry by its tile's factor, reshapes back and multiplies by w.

  Proved here, bottom-up: the sum over the two inner coordinates is the tile's sum of absolute values
  (`v2_apply`); the quotient by 4096 is the product with 1/4096 on every extended real (`v4_apply`); the factor
  is the specification's keep factor (`v9_apply`); the masked matrix entry by entry (`v11_apply`); and the
  product (`ref_eq`). No step needs an entry to be finite.
-/
import proofs.«129251_j60748017435349_2_alg».proof.Proof.Gen.ReferenceIdeal.Read
import proofs.«129251_j60748017435349_2_alg».proof.Proof.Spec

noncomputable section

open scoped BigOperators

namespace Cert.TileMask.Ref

open Cert.ReferenceIdeal Cert.ReferenceIdeal.Gen Cert.ReferenceIdeal.Read Idealize.ShloMosaic Idealize.ShloMosaic.ValueIdx

/-! ## The sum over the two inner coordinates -/

/-- Dropping coordinates 1 and 3 of (a, p, l, q) leaves a first … -/
theorem drop_val0 (i : S64x64x64x64.Idx) :
    (reducesTo_S64x64x64x64_S64x64_d1_3.drop i 0).val = (i 0).val :=
  Shape.ReducesTo.drop_apply_val_of_eq reducesTo_S64x64x64x64_S64x64_d1_3 i 0 0

/-- … and l second. -/
theorem drop_val1 (i : S64x64x64x64.Idx) :
    (reducesTo_S64x64x64x64_S64x64_d1_3.drop i 1).val = (i 2).val :=
  Shape.ReducesTo.drop_apply_val_of_eq reducesTo_S64x64x64x64_S64x64_d1_3 i 1 2

/-- The indices (a', p, l', q) that drop to (a, l) are exactly the (a, p, l, q), one for each pair (p, q): a sum
    over them is the double sum over p and q. -/
theorem sum_filter_drop (f : S64x64x64x64.Idx → EReal) (a l : Fin 64) :
    ∑ i ∈ Finset.univ.filter (fun i => reducesTo_S64x64x64x64_S64x64_d1_3.drop i = ix2 a l), f i
      = ∑ p : Fin 64, ∑ q : Fin 64, f (ix4 a p l q) := by
  rw [← Finset.sum_product' Finset.univ Finset.univ (fun p q : Fin 64 => f (ix4 a p l q))]
  refine Finset.sum_bij' (fun i _ => ((i 1 : Fin 64), (i 3 : Fin 64))) (fun pq _ => ix4 a pq.1 l pq.2) ?_ ?_ ?_ ?_ ?_
  · intro i _; exact Finset.mem_product.mpr ⟨Finset.mem_univ _, Finset.mem_univ _⟩
  · intro pq _
    refine Finset.mem_filter.mpr ⟨Finset.mem_univ _, ?_⟩
    funext b
    match b with
    | ⟨0, _⟩ => exact Fin.ext (drop_val0 _)
    | ⟨1, _⟩ => exact Fin.ext (drop_val1 _)
  · intro i hi
    have h := (Finset.mem_filter.mp hi).2
    have h0 : (i 0).val = a.val := (drop_val0 i).symm.trans (congrArg (fun j => (j 0).val) h)
    have h2 : (i 2).val = l.val := (drop_val1 i).symm.trans (congrArg (fun j => (j 1).val) h)
    funext b
    match b with
    | ⟨0, _⟩ => exact Fin.ext h0.symm
    | ⟨1, _⟩ => rfl
    | ⟨2, _⟩ => exact Fin.ext h2.symm
    | ⟨3, _⟩ => rfl
  · intro pq _; rfl
  · intro i hi
    have h := (Finset.mem_filter.mp hi).2
    have h0 : (i 0).val = a.val := (drop_val0 i).symm.trans (congrArg (fun j => (j 0).val) h)
    have h2 : (i 2).val = l.val := (drop_val1 i).symm.trans (congrArg (fun j => (j 1).val) h)
    refine congrArg f ?_
    funext b
    match b with
    | ⟨0, _⟩ => exact Fin.ext h0
    | ⟨1, _⟩ => rfl
    | ⟨2, _⟩ => exact Fin.ext h2
    | ⟨3, _⟩ => rfl

/-! ## The tile sums -/

/-- Entry (a, p, l, q) of the reshaped array is x[64a + p, 64l + q]: its row-major position
    ((64a + p)·64 + l)·64 + q is (64a + p)·4096 + (64l + q). -/
theorem v0_apply (x : (⟨S4096x4096, .f32⟩ : BufTy).Contents (Elt Ideal)) (a p l q : Fin 64) :
    val_main_v0 (F := Ideal) x (ix4 a p l q) = x (ix2 (at64 a p) (at64 l q)) := by
  rw [val_main_v0_apply]
  refine congrArg x ?_
  funext b
  match b with
  | ⟨0, _⟩ =>
    refine Fin.ext ?_
    show (((a.val * 64 + p.val) * 64 + l.val) * 64 + q.val) / 4096 = 64 * a.val + p.val
    omega
  | ⟨1, _⟩ =>
    refine Fin.ext ?_
    show (((a.val * 64 + p.val) * 64 + l.val) * 64 + q.val) % 4096 = 64 * l.val + q.val
    omega

/-- The reduction over coordinates 1 and 3, from the initial value 0, at (a, l): the sum of the absolute values of
    tile (a, l)'s entries. -/
theorem v2_apply (x : (⟨S4096x4096, .f32⟩ : BufTy).Contents (Elt Ideal)) (a l : Fin 64) :
    val_main_v2 (F := Ideal) x (ix2 a l) = sumAbs (fun p q => x (ix2 (at64 a p) (at64 l q))) := by
  show Ideal.hostReduceAdd reducesTo_S64x64x64x64_S64x64_d1_3 (val_main_v1 (F := Ideal) x)
      (val_main_cst (F := Ideal) (Shape.Idx.first h_S_)) (ix2 a l) = _
  unfold Ideal.hostReduceAdd
  rw [sum_filter_drop, val_main_cst_apply]
  refine (congrArg (· + _) Ideal.ofBits_zero_f32).trans ?_
  rw [zero_add]
  unfold sumAbs
  refine Finset.sum_congr rfl fun p _ => Finset.sum_congr rfl fun q _ => ?_
  rw [val_main_v1_apply, v0_apply]
  rfl

/-! ## The keep factor -/

/-- The divisor's word denotes the real 4096 = 2¹². -/
theorem ofBits_4096 : Ideal.ofBits .f32 0x45800000#32 = ((4096 : ℝ) : EReal) := by
  simp [Ideal.ofBits, Ideal.ieee, -EReal.coe_mul]; norm_num

/-- The tile mean: division by the nonzero real 4096 is multiplication by 1/4096, on every extended real. -/
theorem v4_apply (x : (⟨S4096x4096, .f32⟩ : BufTy).Contents (Elt Ideal)) (a l : Fin 64) :
    val_main_v4 (F := Ideal) x (ix2 a l)
      = sumAbs (fun p q => x (ix2 (at64 a p) (at64 l q))) * ((1 / 4096 : ℝ) : EReal) := by
  rw [val_main_v4_apply, v2_apply, val_main_v3_apply, val_main_cst_0_apply]
  show Ideal.div _ (Ideal.ofBits .f32 0x45800000#32) = _
  rw [ofBits_4096]
  exact Ideal.div_coe (by norm_num) _

/-- The broadcast threshold is the threshold at every tile. -/
theorem v5_apply (a l : Fin 64) : val_main_v5 (F := Ideal) (ix2 a l) = thr := by
  rw [val_main_v5_apply, val_main_cst_1_apply]
  rfl

/-- The comparison bit of tile (a, l): mean above threshold. -/
theorem v6_apply (x : (⟨S4096x4096, .f32⟩ : BufTy).Contents (Elt Ideal)) (a l : Fin 64) :
    val_main_v6 (F := Ideal) x (ix2 a l)
      = Ideal.cmp .ogt (sumAbs (fun p q => x (ix2 (at64 a p) (at64 l q))) * ((1 / 4096 : ℝ) : EReal)) thr := by
  rw [val_main_v6_apply, v4_apply, v5_apply]
  rfl

/-- The bit of `s > t` read as an unsigned integer and then as a float is 1 when t < s and 0 otherwise. -/
theorem uitofp_cmp_ogt (s t : EReal) :
    (FloatOps.uitofp (F := Ideal) .f32 (Ideal.cmp .ogt s t) : EReal) = if t < s then 1 else 0 := by
  show (((BitVec.ofBool (decide (t < s))).toNat : ℝ) : EReal) = _
  by_cases h : t < s
  · rw [if_pos h, decide_eq_true h]; simp
  · rw [if_neg h, decide_eq_false h]; simp

/-- The factor broadcast over a tile's 64 × 64 positions is the tile's keep factor. -/
theorem v9_apply (x : (⟨S4096x4096, .f32⟩ : BufTy).Contents (Elt Ideal)) (a p l q : Fin 64) :
    val_main_v9 (F := Ideal) x (ix4 a p l q) = keep x a l := by
  rw [val_main_v9_apply, val_main_v8_apply, val_main_v7_apply]
  have hidx : idx_main_v7 (idx_main_v9 (ix4 a p l q)) = ix2 a l := by
    funext b
    match b with
    | ⟨0, _⟩ => rfl
    | ⟨1, _⟩ => rfl
  rw [hidx, v6_apply, uitofp_cmp_ogt]
  rfl

/-! ## The masked matrix and the product -/

/-- Entry (r, k) of the matrix reshaped back is entry (r / 64, r % 64, k / 64, k % 64) of the 4-dimensional product:
    x[r, k] times the keep factor of tile (r / 64, k / 64). -/
theorem v11_apply (x : (⟨S4096x4096, .f32⟩ : BufTy).Contents (Elt Ideal)) (r k : Fin 4096) :
    val_main_v11 (F := Ideal) x (ix2 r k) = maskedAt x r k := by
  rw [val_main_v11_apply]
  have hidx : idx_main_v11 (ix2 r k)
      = ix4 (tileOf r) (⟨r.val % 64, Nat.mod_lt _ (by decide)⟩ : Fin 64) (tileOf k)
          (⟨k.val % 64, Nat.mod_lt _ (by decide)⟩ : Fin 64) := by
    funext b
    match b with
    | ⟨0, _⟩ =>
      refine Fin.ext ?_
      show (r.val * 4096 + k.val) / 262144 = r.val / 64
      omega
    | ⟨1, _⟩ =>
      refine Fin.ext ?_
      show (r.val * 4096 + k.val) / 4096 % 64 = r.val % 64
      omega
    | ⟨2, _⟩ =>
      refine Fin.ext ?_
      show (r.val * 4096 + k.val) / 64 % 64 = k.val / 64
      omega
    | ⟨3, _⟩ =>
      refine Fin.ext ?_
      show (r.val * 4096 + k.val) % 64 = k.val % 64
      omega
  rw [hidx, val_main_v10_apply, v0_apply, v9_apply]
  have hr : at64 (tileOf r) (⟨r.val % 64, Nat.mod_lt _ (by decide)⟩ : Fin 64) = r :=
    Fin.ext (by show 64 * (r.val / 64) + r.val % 64 = r.val; omega)
  have hk : at64 (tileOf k) (⟨k.val % 64, Nat.mod_lt _ (by decide)⟩ : Fin 64) = k :=
    Fin.ext (by show 64 * (k.val / 64) + k.val % 64 = k.val; omega)
  rw [hr, hk]
  rfl

/-- The reference's result at (i, j): the sum over k of the masked entry (i, k) times w[k, j]. -/
theorem ref_apply (x : (⟨Cert.ReferenceIdeal.S4096x4096, .f32⟩ : BufTy).Contents (Elt Ideal))
    (w : (⟨Cert.ReferenceIdeal.S4096x11008, .f32⟩ : BufTy).Contents (Elt Ideal)) (i : Fin 4096) (j : Fin 11008) :
    Cert.ReferenceIdeal.Read.val_main_v12 (F := Ideal) x w (ix2 i j) = Cert.TileMask.G x w (ix2 i j) := by
  rw [val_main_v12_apply, G_apply]
  refine Finset.sum_congr rfl fun k _ => ?_
  have hl : lidx_main_v12 (ix2 i j) k = ix2 i k := by
    funext b
    match b with
    | ⟨0, _⟩ => rfl
    | ⟨1, _⟩ => rfl
  have hr : ridx_main_v12 (ix2 i j) k = ix2 k j := by
    funext b
    match b with
    | ⟨0, _⟩ => rfl
    | ⟨1, _⟩ => rfl
  rw [hl, hr, v11_apply]

/-- The reference computes the masked matrix times w. -/
theorem ref_eq (x : (⟨Cert.ReferenceIdeal.S4096x4096, .f32⟩ : BufTy).Contents (Elt Ideal))
    (w : (⟨Cert.ReferenceIdeal.S4096x11008, .f32⟩ : BufTy).Contents (Elt Ideal)) :
    Cert.ReferenceIdeal.Read.val_main_v12 (F := Ideal) x w = Cert.TileMask.G x w := by
  funext j
  have e : j = ix2 (n0 := 4096) (n1 := 11008) (j 0) (j 1) := eq_ix2 j
  rw [e]
  exact ref_apply x w (j 0) (j 1)

end Cert.TileMask.Ref

end
-- ==== Proof.lean ====
/-
  The certificate: a block-masked matrix product computed by two kernels against its array-language reference.

  Both programs take x (4096 × 4096) and w (4096 × 11008). x is cut into 64 × 64 tiles of 64 × 64 entries; a tile is
  kept when the mean of the absolute values of its entries is above a threshold, the entries of the other tiles are
  replaced by zero, and the masked matrix is multiplied by w. The kernel program computes each tile's sum of absolute
  values by two products with 0/1 selector matrices and scales it by 2⁻¹², the reference sums over two axes of a
  reshaped array and divides by 4096; on the extended reals these are the same number (multiplication by 0 or 1 and
  reordering a sum need no finiteness, and dividing by 4096 is multiplying by its reciprocal), so the keep factors,
  the masked matrices and the products agree entry by entry: both results are `Cert.TileMask.G x w`.

  The three frame claims are the programs' runs with the results forgotten; the idealization rewrote nothing, so the
  idealized kernel is the kernel's own text and the preservation claim is trivial.
-/
import proofs.«129251_j60748017435349_2_alg».proof.Defs
import proofs.«129251_j60748017435349_2_alg».proof.Proof.Gen.Kernel
import proofs.«129251_j60748017435349_2_alg».proof.Proof.Gen.Kernel.Skeleton
import proofs.«129251_j60748017435349_2_alg».proof.Proof.Gen.Kernel.Launch
import proofs.«129251_j60748017435349_2_alg».proof.Proof.Gen.Kernel.Points
import proofs.«129251_j60748017435349_2_alg».proof.Proof.Gen.Kernel.Frame
import proofs.«129251_j60748017435349_2_alg».proof.Proof.Gen.KernelIdeal
import proofs.«129251_j60748017435349_2_alg».proof.Proof.Gen.KernelIdeal.Skeleton
import proofs.«129251_j60748017435349_2_alg».proof.Proof.Gen.KernelIdeal.Launch
import proofs.«129251_j60748017435349_2_alg».proof.Proof.Gen.KernelIdeal.Points
import proofs.«129251_j60748017435349_2_alg».proof.Proof.Gen.KernelIdeal.Frame
import proofs.«129251_j60748017435349_2_alg».proof.Proof.Gen.ReferenceIdeal
import proofs.«129251_j60748017435349_2_alg».proof.Proof.Gen.Pre_finite_inputs
import proofs.«129251_j60748017435349_2_alg».proof.Proof.Gen.ReferenceIdeal.Run
import proofs.«129251_j60748017435349_2_alg».proof.Proof.Gen.ReferenceIdeal.Read
import proofs.«129251_j60748017435349_2_alg».proof.Proof.KernelValue
import proofs.«129251_j60748017435349_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both programs, from memories agreeing on the arguments, end with the result array at the masked matrix of x
    times w: the kernel program by its two regions' values, the reference by its operations read one at a time. -/
theorem algebraic : Cert.algebraic_KernelIdeal_ReferenceIdeal := by
  intro m ρ m' ρ' _ hagree
  refine ⟨fun c => Cert.TileMask.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.TileMask.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.TileMask.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
